-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3002 : Shape := ⟨1, ![3002]⟩
abbrev S1000000 : Shape := ⟨1, ![1000000]⟩
abbrev S128x128 : Shape := ⟨2, ![128, 128]⟩
abbrev S128 : Shape := ⟨1, ![128]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3002 : S_.BroadcastsInDim S3002 (![] : Fin 0 → Fin S3002.rank)
  reducesTo_S3002_S_d0 : S3002.ReducesTo [0] S_
  bcast_S_S1000000 : S_.BroadcastsInDim S1000000 (![] : Fin 0 → Fin S1000000.rank)
  reducesTo_S1000000_S_d0 : S1000000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S3002 .f32) (main_arg2 : FVec F S1000000 .f32) (main_arg3 : FVec F S128x128 .f32) (main_arg4 : FVec F S128 .f32) (main_arg5 : IVec S50000 32) (main_arg6 : IVec S1000000 32) (main_arg7 : IVec S1000000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3002 .f32 := Host.absf main_arg1
  let main_cst_0 : FVec F S_ .f32 := constant S_ .f32 0x7F800000#32
  let main_v5 : FVec F S3002 .f32 := broadcastInDim S3002 ![] bcast_S_S3002 main_cst_0
  let main_v6 : IVec S3002 1 := cmpf .olt main_v4 main_v5
  let main_c_1 : IVec S_ 1 := constantI S_ 1 1#1
  let main_v7 : IVec S_ 1 := (fun x v => Host.reduce IntOp.andi x v reducesTo_S3002_S_d0 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x128 : Shape := ⟨2, ![50000, 128]⟩
abbrev S3002 : Shape := ⟨1, ![3002]⟩
abbrev S1000000 : Shape := ⟨1, ![1000000]⟩
abbrev S128x128 : Shape := ⟨2, ![128, 128]⟩
abbrev S128 : Shape := ⟨1, ![128]⟩
abbrev S50000 : Shape := ⟨1, ![50000]⟩
abbrev S_ : Shape := ⟨0, ![]⟩
abbrev S1000000x1 : Shape := ⟨2, ![1000000, 1]⟩
abbrev S1000000x128 : Shape := ⟨2, ![1000000, 128]⟩
abbrev S8000x128 : Shape := ⟨2, ![8000, 128]⟩
abbrev S8000x1 : Shape := ⟨2, ![8000, 1]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 89
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S3002, .f32⟩
  | .hbm, ⟨2, _⟩ => ⟨S1000000, .f32⟩
  | .hbm, ⟨3, _⟩ => ⟨S128x128, .f32⟩
  | .hbm, ⟨4, _⟩ => ⟨S128, .f32⟩
  | .hbm, ⟨5, _⟩ => ⟨S50000, .i32⟩
  | .hbm, ⟨6, _⟩ => ⟨S1000000, .i32⟩
  | .hbm, ⟨7, _⟩ => ⟨S1000000, .i32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000, .i32⟩
  | .hbm, ⟨26, _⟩ => ⟨S_, .i32⟩
  | .hbm, ⟨27, _⟩ => ⟨S1000000, .i32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S1000000, .i1⟩
  | .hbm, ⟨35, _⟩ => ⟨S1000000, .i32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S1000000, .i1⟩
  | .hbm, ⟨43, _⟩ => ⟨S1000000, .i32⟩
  | .hbm, ⟨44, _⟩ => ⟨S_, .i32⟩
  | .hbm, ⟨45, _⟩ => ⟨S1000000, .i32⟩
  | .hbm, ⟨46, _⟩ => ⟨S1000000, .i1⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S1000000, .i1⟩
  | .hbm, ⟨51, _⟩ => ⟨S_, .i32⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S_, .i32⟩
  | .hbm, ⟨56, _⟩ => ⟨S1000000, .i32⟩
  | .hbm, ⟨57, _⟩ => ⟨S1000000, .i1⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S1000000, .i32⟩
  | .hbm, ⟨62, _⟩ => ⟨S1000000x1, .i32⟩
  | .hbm, ⟨63, _⟩ => ⟨S1000000, .f32⟩
  | .hbm, ⟨64, _⟩ => ⟨S1000000, .f32⟩
  | .hbm, ⟨65, _⟩ => ⟨S_, .i32⟩
  | .hbm, ⟨66, _⟩ => ⟨S1000000, .i32⟩
  | .hbm, ⟨67, _⟩ => ⟨S1000000, .i1⟩
  | .hbm, ⟨68, _⟩ => ⟨S_, .i32⟩
  | .hbm, ⟨69, _⟩ => ⟨S1000000, .i32⟩
  | .hbm, ⟨70, _⟩ => ⟨S1000000, .i32⟩
  | .hbm, ⟨71, _⟩ => ⟨S1000000, .i32⟩
  | .hbm, ⟨72, _⟩ => ⟨S1000000x1, .i32⟩
  | .hbm, ⟨73, _⟩ => ⟨S1000000x128, .f32⟩
  | .hbm, ⟨74, _⟩ => ⟨S1000000x1, .f32⟩
  | .hbm, ⟨75, _⟩ => ⟨S1000000x128, .f32⟩
  | .hbm, ⟨76, _⟩ => ⟨S_, .f32⟩
  | .hbm, ⟨77, _⟩ => ⟨S50000x128, .f32⟩
  | .hbm, ⟨78, _⟩ => ⟨S1000000x1, .i32⟩
  | .hbm, ⟨79, _⟩ => ⟨S50000x128, .f32⟩
  | .hbm, ⟨80, _⟩ => ⟨S_, .f32⟩
  | .hbm, ⟨81, _⟩ => ⟨S1000000, .f32⟩
  | .hbm, ⟨82, _⟩ => ⟨S_, .f32⟩
  | .hbm, ⟨83, _⟩ => ⟨S50000, .f32⟩
  | .hbm, ⟨84, _⟩ => ⟨S1000000x1, .i32⟩
  | .hbm, ⟨85, _⟩ => ⟨S50000, .f32⟩
  | .hbm, ⟨86, _⟩ => ⟨S50000x1, .f32⟩
  | .hbm, ⟨87, _⟩ => ⟨S1x128, .f32⟩
  | .hbm, ⟨88, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S8000x1, .f32⟩
  | .local _ .vmem, ⟨3, _⟩ => ⟨S8000x1, .f32⟩
  | .local _ .vmem, ⟨4, _⟩ => ⟨S8000x128, .f32⟩
  | .local _ .vmem, ⟨5, _⟩ => ⟨S8000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_c_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_10 : Ref sig .tc := ⟨.hbm, 51, rfl⟩
abbrev main_call2_v0 : Ref sig .tc := ⟨.hbm, 52, rfl⟩
abbrev main_call2_v1 : Ref sig .tc := ⟨.hbm, 53, rfl⟩
abbrev main_v32 : Ref sig .tc := ⟨.hbm, 54, rfl⟩
abbrev main_c_11 : Ref sig .tc := ⟨.hbm, 55, rfl⟩
abbrev main_v33 : Ref sig .tc := ⟨.hbm, 56, rfl⟩
abbrev main_v34 : Ref sig .tc := ⟨.hbm, 57, rfl⟩
abbrev main_c_12 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_13 : Ref sig .tc := ⟨.hbm, 65, rfl⟩
abbrev main_v41 : Ref sig .tc := ⟨.hbm, 66, rfl⟩
abbrev main_v42 : Ref sig .tc := ⟨.hbm, 67, rfl⟩
abbrev main_c_14 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_15 : Ref sig .tc := ⟨.hbm, 80, rfl⟩
abbrev main_v53 : Ref sig .tc := ⟨.hbm, 81, rfl⟩
abbrev main_cst_16 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000_S1000000x1 : S1000000.ShapeCasts S1000000x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000_S1000000x1_S1000000_n_0_n_n_0_1_1_wf : GatherDims.WF S50000 S1000000x1 S1000000 [] [0] [] [0] [] 1 ![1]
  gather_S3002_S1000000x1_S1000000_n_0_n_n_0_1_1_wf : GatherDims.WF S3002 S1000000x1 S1000000 [] [0] [] [0] [] 1 ![1]
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S1000000x1.size a
  hwx0_1 : ∀ i : grid0.Coords, EltTy.bits .f32 = 32 ∨ (Rect.block (s := S1000000x1) S8000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S1000000x128.size a
  hwx0_2 : ∀ i : grid0.Coords, EltTy.bits .f32 = 32 ∨ (Rect.block (s := S1000000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def gather_S3002_S1000000x1_S1000000_n_0_n_n_0_1_1 : GatherDims S3002 S1000000x1 S1000000 where
  offsetDims := []
  collapsedSliceDims := [0]
  operandBatchingDims := []
  startIndicesBatchingDims := []
  startIndexMap := [0]
  indexVectorDim := 1
  sliceSizes := ![1]
  wf := gather_S3002_S1000000x1_S1000000_n_0_n_n_0_1_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v47) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S3002 : Shape := ⟨1, ![3002]⟩
abbrev S1000000 : Shape := ⟨1, ![1000000]⟩
abbrev S128x128 : Shape := ⟨2, ![128, 128]⟩
abbrev S128 : Shape := ⟨1, ![128]⟩
abbrev S50000 : Shape := ⟨1, ![50000]⟩
abbrev S_ : Shape := ⟨0, ![]⟩
abbrev S1000000x1 : Shape := ⟨2, ![1000000, 1]⟩
abbrev S1000000x128 : Shape := ⟨2, ![1000000, 128]⟩
abbrev S50000x1 : Shape := ⟨2, ![50000, 1]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S3002, .f32⟩
  | .hbm, ⟨2, _⟩ => ⟨S1000000, .f32⟩
  | .hbm, ⟨3, _⟩ => ⟨S128x128, .f32⟩
  | .hbm, ⟨4, _⟩ => ⟨S128, .f32⟩
  | .hbm, ⟨5, _⟩ => ⟨S50000, .i32⟩
  | .hbm, ⟨6, _⟩ => ⟨S1000000, .i32⟩
  | .hbm, ⟨7, _⟩ => ⟨S1000000, .i32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000, .i32⟩
  | .hbm, ⟨26, _⟩ => ⟨S_, .i32⟩
  | .hbm, ⟨27, _⟩ => ⟨S1000000, .i32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S1000000, .i1⟩
  | .hbm, ⟨35, _⟩ => ⟨S1000000, .i32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S1000000, .i1⟩
  | .hbm, ⟨43, _⟩ => ⟨S1000000, .i32⟩
  | .hbm, ⟨44, _⟩ => ⟨S_, .i32⟩
  | .hbm, ⟨45, _⟩ => ⟨S1000000, .i32⟩
  | .hbm, ⟨46, _⟩ => ⟨S1000000, .i1⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S1000000, .i1⟩
  | .hbm, ⟨51, _⟩ => ⟨S_, .i32⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S_, .i32⟩
  | .hbm, ⟨56, _⟩ => ⟨S1000000, .i32⟩
  | .hbm, ⟨57, _⟩ => ⟨S1000000, .i1⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S1000000, .i32⟩
  | .hbm, ⟨62, _⟩ => ⟨S1000000x1, .i32⟩
  | .hbm, ⟨63, _⟩ => ⟨S1000000, .f32⟩
  | .hbm, ⟨64, _⟩ => ⟨S1000000, .f32⟩
  | .hbm, ⟨65, _⟩ => ⟨S_, .i32⟩
  | .hbm, ⟨66, _⟩ => ⟨S1000000, .i32⟩
  | .hbm, ⟨67, _⟩ => ⟨S1000000, .i1⟩
  | .hbm, ⟨68, _⟩ => ⟨S_, .i32⟩
  | .hbm, ⟨69, _⟩ => ⟨S1000000, .i32⟩
  | .hbm, ⟨70, _⟩ => ⟨S1000000, .i32⟩
  | .hbm, ⟨71, _⟩ => ⟨S1000000, .i32⟩
  | .hbm, ⟨72, _⟩ => ⟨S1000000x1, .i32⟩
  | .hbm, ⟨73, _⟩ => ⟨S1000000x128, .f32⟩
  | .hbm, ⟨74, _⟩ => ⟨S1000000x1, .f32⟩
  | .hbm, ⟨75, _⟩ => ⟨S1000000x128, .f32⟩
  | .hbm, ⟨76, _⟩ => ⟨S1000000x128, .f32⟩
  | .hbm, ⟨77, _⟩ => ⟨S_, .f32⟩
  | .hbm, ⟨78, _⟩ => ⟨S50000x128, .f32⟩
  | .hbm, ⟨79, _⟩ => ⟨S1000000x1, .i32⟩
  | .hbm, ⟨80, _⟩ => ⟨S50000x128, .f32⟩
  | .hbm, ⟨81, _⟩ => ⟨S_, .f32⟩
  | .hbm, ⟨82, _⟩ => ⟨S1000000, .f32⟩
  | .hbm, ⟨83, _⟩ => ⟨S_, .f32⟩
  | .hbm, ⟨84, _⟩ => ⟨S50000, .f32⟩
  | .hbm, ⟨85, _⟩ => ⟨S1000000x1, .i32⟩
  | .hbm, ⟨86, _⟩ => ⟨S50000, .f32⟩
  | .hbm, ⟨87, _⟩ => ⟨S_, .f32⟩
  | .hbm, ⟨88, _⟩ => ⟨S50000, .f32⟩
  | .hbm, ⟨89, _⟩ => ⟨S50000, .f32⟩
  | .hbm, ⟨90, _⟩ => ⟨S50000x1, .f32⟩
  | .hbm, ⟨91, _⟩ => ⟨S50000x128, .f32⟩
  | .hbm, ⟨92, _⟩ => ⟨S50000x128, .f32⟩
  | .hbm, ⟨93, _⟩ => ⟨S128x128, .f32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_c_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_10 : Ref sig .tc := ⟨.hbm, 51, rfl⟩
abbrev main_call2_v0 : Ref sig .tc := ⟨.hbm, 52, rfl⟩
abbrev main_call2_v1 : Ref sig .tc := ⟨.hbm, 53, rfl⟩
abbrev main_v32 : Ref sig .tc := ⟨.hbm, 54, rfl⟩
abbrev main_c_11 : Ref sig .tc := ⟨.hbm, 55, rfl⟩
abbrev main_v33 : Ref sig .tc := ⟨.hbm, 56, rfl⟩
abbrev main_v34 : Ref sig .tc := ⟨.hbm, 57, rfl⟩
abbrev main_c_12 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_13 : Ref sig .tc := ⟨.hbm, 65, rfl⟩
abbrev main_v41 : Ref sig .tc := ⟨.hbm, 66, rfl⟩
abbrev main_v42 : Ref sig .tc := ⟨.hbm, 67, rfl⟩
abbrev main_c_14 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_15 : Ref sig .tc := ⟨.hbm, 81, rfl⟩
abbrev main_v54 : Ref sig .tc := ⟨.hbm, 82, rfl⟩
abbrev main_cst_16 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_17 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call3_cst : Ref sig .tc := ⟨.hbm, 98, rfl⟩
abbrev main_call3_v0 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000_S1000000x1_S1000000_n_0_n_n_0_1_1_wf : GatherDims.WF S50000 S1000000x1 S1000000 [] [0] [] [0] [] 1 ![1]
  gather_S3002_S1000000x1_S1000000_n_0_n_n_0_1_1_wf : GatherDims.WF S3002 S1000000x1 S1000000 [] [0] [] [0] [] 1 ![1]
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S50000x128_S128x128_S50000x128_1_0_0_1_n_n_wf : DotDims.WF S50000x128 S128x128 S50000x128 [1] [0] [0] [1] [] []

variable [Facts₀]

def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def gather_S3002_S1000000x1_S1000000_n_0_n_n_0_1_1 : GatherDims S3002 S1000000x1 S1000000 where
  offsetDims := []
  collapsedSliceDims := [0]
  operandBatchingDims := []
  startIndicesBatchingDims := []
  startIndexMap := [0]
  indexVectorDim := 1
  sliceSizes := ![1]
  wf := gather_S3002_S1000000x1_S1000000_n_0_n_n_0_1_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The run of the whole program with its result named.  The program is a line of host operations, a first
  grid of 125 points (each scales an 8000-row tile of gathered rows by its per-row coefficient), a second line of
  host operations (two scatter-adds), and a second grid of 10 points (each turns a 5000-row tile of summed rows into
  the layer's output).  Every weakly fair execution terminates; the result array then holds what the second grid's
  write-backs leave, folded over its ten points, and the eight argument arrays are as launched.
-/
import proofs.«168973_j4337916969114_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the fold of the
    second grid's ten write-backs over the contents the second line of host operations leaves, and every argument
    array ends as it was launched. -/
theorem run_out : θ_run defs (onTc (τ := τ) (main (F := F))) ⟨m, fun _ => 0, ρ⟩ (fun r => ∀ c : Dev nD,
      r.2.mem ((c.tc : Thread nD τ).loc main_v59) = (dat1 (V9 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨(h c _ (mem_uc main_v59 (by decide))).trans (W10_arr m ρ c 4),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Whole

end
-- ==== Proof.ScaleRegion.lean ====
/-
  The first grid, read as one array.  Its 125 points each take an 8000-row tile of the gathered rows H (1000000 x 128)
  and the matching 8000 entries of the coefficient column C (1000000 x 1) and write back the tile of
  H[e, d] * C[e, 0].  The tiles partition the rows, so after the grid the output array is that product at every
  index, whatever contents the region was entered with.
-/
import proofs.«168973_j4337916969114_1_alg».proof.Proof.Gen.KernelIdeal.Frame
import Idealize.ShloMosaic.Lib.Pipeline.Value
import Idealize.ShloMosaic.Lib.ValueIdx

set_option maxRecDepth 16384

noncomputable section

namespace Cert.KernelIdeal.Scale

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The position, in the one-column coefficient array, of the row an entry of the big array lies in. -/
abbrev rowOf (i : S1000000x128.Idx) : S1000000x1.Idx := fun a => match a with
  | ⟨0, _⟩ => ⟨(i 0).val, (i 0).isLt⟩
  | ⟨1, _⟩ => ⟨0, Nat.one_pos⟩

/-- The same inside one 8000-row tile. -/
abbrev tileRowOf (j : S8000x128.Idx) : S8000x1.Idx := fun a => match a with
  | ⟨0, _⟩ => ⟨(j 0).val, (j 0).isLt⟩
  | ⟨1, _⟩ => ⟨0, Nat.one_pos⟩

/-- Every row of `H` times that row's coefficient. -/
def scaled (H : S1000000x128.Idx → Elt Ideal .f32) (C : S1000000x1.Idx → Elt Ideal .f32) : S1000000x128.Idx → Elt Ideal .f32 :=
  fun i => H i * C (rowOf i)

theorem origin2 : (![0, 0] : Fin 2 → Nat) = fun _ => 0 := funext fun a => by fin_cases a <;> rfl

/-- An entry read at one position times a coefficient read at that position's row is the scaled array there. -/
theorem scaled_at (H : S1000000x128.Idx → Elt Ideal .f32) (C : S1000000x1.Idx → Elt Ideal .f32)
    (a b : S1000000x128.Idx) (a' : S1000000x1.Idx) (h0 : a = b) (h1 : a' = rowOf b) : H a * C a' = scaled H C b := by
  subst h0; subst h1; rfl

/-- What one point stores, entry by entry: the tile's entry times its row's coefficient (the column is broadcast
    along the 128 lanes). -/
theorem tile_apply (x0 : Vec Ideal S8000x128 .f32) (x1 : Vec Ideal S8000x1 .f32) (j : S8000x128.Idx) :
    k0_pay1 x0 x1 j = x0 j * x1 (tileRowOf j) := by
  unfold k0_pay1
  show (shapeCast S8000x128 x0 shapeCasts_S8000x128_S8000x128) j
      * (broadcastTo S8000x128 (shapeCast S8000x1 x1 shapeCasts_S8000x1_S8000x1) broadcasts_S8000x1_S8000x128) j = _
  rw [shapeCast_self, shapeCast_self]
  rw [broadcastTo_apply x1 broadcasts_S8000x1_S8000x128 j (tileRowOf j) (fun a => match a with
    | ⟨0, _⟩ => by show (j 0).val = if (8000 : Nat) = 1 then 0 else (j 0).val; rw [if_neg (by decide)]
    | ⟨1, _⟩ => by show 0 = if (1 : Nat) = 1 then 0 else (j 1).val; rw [if_pos rfl])]

/-- The three windows move together: at point `t` each sits at block row `t`, block column 0. -/
theorem block_positions : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (1 : Fin 2) = 0
    ∧ win0_2.index t (0 : Fin 2) = t.val :=
  (by decide +kernel : ∀ t : Fin grid0.N, _)

/-- What point `t` writes back is tile `t` of the scaled array. -/
theorem flushed_eq (c : Dev nD) (t : Fin cfg0.N) :
    (dat0 V c).flushed 2 t = ((cfg0.win 2).blk t).view.read (Elt Ideal) (scaled (V c main_v47) (V c main_v48)) := by
  show (cfg0.win 2).cut (grid0.coords t) ((dat0 V c).after 2 t) = _
  rw [after0_2]
  unfold out0_2
  rw [View.canon_unit_zero origin2]
  simp only [View.ld_unit_zero (S := S8000x128) origin2, View.ld_unit_zero (S := S8000x1) origin2]
  obtain ⟨e0, e1, e2, e3, e4, e5⟩ := block_positions t
  funext j
  refine (tile_apply (iblk0 V c 0 t) (iblk0 V c 1 t) j).trans ?_
  have h0 : ((cfg0.win 0).blk t).view.emb j = ((cfg0.win 2).blk t).view.emb j := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (tileRowOf j) = rowOf (((cfg0.win 2).blk t).view.emb j) := by
    funext a; apply Fin.ext
    match a with
    | ⟨0, _⟩ => show win0_1.index t (0 : Fin 2) * 8000 + 1 * (j 0).val = win0_2.index t (0 : Fin 2) * 8000 + 1 * (j 0).val; omega
    | ⟨1, _⟩ => show win0_1.index t (1 : Fin 2) * 1 + 1 * 0 = 0; omega
  exact scaled_at (V c main_v47) (V c main_v48) (((cfg0.win 0).blk t).view.emb j) (((cfg0.win 2).blk t).view.emb j)
    (((cfg0.win 1).blk t).view.emb (tileRowOf j)) h0 h1

/-- An index is in point `t`'s output tile iff each coordinate is in the tile's range on its axis. -/
theorem mem_tile (t : Fin cfg0.N) (i : S1000000x128.Idx) :
    i ∈ ((cfg0.win 2).blk t).view.set ↔ ∀ a : Fin 2, win0_2.index t a * S8000x128.size a ≤ (i a).val ∧ (i a).val < win0_2.index t a * S8000x128.size a + S8000x128.size a := by
  show i ∈ ((View.whole main_v49).slice (win0_2.rect t)).set ↔ _
  rw [View.set_slice_whole, Rect.mem_set_unit]
  exact Iff.rfl

/-- Every index lies in a tile: row `r` in tile `r / 8000`. -/
theorem tiles_cover (i : S1000000x128.Idx) :
    ∃ t : Fin cfg0.N, (cfg0.win 2).flush t = true ∧ i ∈ ((cfg0.win 2).blk t).view.set := by
  have hi0 : (i 0).val < 1000000 := (i 0).isLt
  have hi1 : (i 1).val < 128 := (i 1).isLt
  have hN : cfg0.N = 125 := N_0
  let t : Fin cfg0.N := ⟨(i 0).val / 8000, by rw [hN]; omega⟩
  obtain ⟨e0, e1, e2, e3, e4, e5⟩ := block_positions t
  have e5' : win0_2.index t (0 : Fin 2) = (i 0).val / 8000 := e5
  refine ⟨t, flush0_2 t, ?_⟩
  rw [mem_tile]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 128 ≤ (i 1).val ∧ (i 1).val < win0_2.index t (1 : Fin 2) * 128 + 128; omega

/-- After the grid the output array is the scaled array. -/
theorem final (c : Dev nD) : (dat0 V c).arrAt 2 cfg0.N = scaled (V c main_v47) (V c main_v48) :=
  (dat0 V c).arrAt_eq_of_cover 2 (scaled (V c main_v47) (V c main_v48)) (fun t _ => flushed_eq V c t) tiles_cover

end Cert.KernelIdeal.Scale

end
-- ==== Proof.LibContract.lean ====
/-
  A matrix unit's product over ONE contracted axis, read at an output position.

  At the exact instance a product into a zero accumulator is the sum, over the contraction's index type, of
  the products of the operands at the positions the dimension record assigns. When the contraction has one
  axis of extent `K`, that index type is `Fin K` up to a bijection, and the sum can be written over `Fin K`
  with the two operand positions named as functions of `k` — whatever axes the record contracts.
-/
import Idealize.ShloMosaic.Lib.ValueIdx
import Idealize.ShloMosaic.PureOps.Ideal.Laws

noncomputable section

namespace Cert.LibContract

open Idealize.ShloMosaic Idealize.ShloMosaic.ValueIdx

/-- A product into the zero accumulator, contracted over one axis of extent `K`, at the output position `j`:
    the sum over `k : Fin K` of the left operand at `li k` times the right operand at `ri k`, where `li`, `ri` are
    the positions the dimension record gives for the `k`-th contracted coordinate. -/
theorem matmul_zero_entry {sl sr so : Shape} {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (li : Fin K → sl.Idx) (ri : Fin K → sr.Idx)
    (hl : ∀ k, d.lhsIdx j ((contrEquiv1 d K hr hs).symm k) = li k)
    (hr' : ∀ k, d.rhsIdx j ((contrEquiv1 d K hr hs).symm k) = ri k) :
    FloatOps.matmul d prec l r (constant (F := Ideal) so .f32 0x00000000#32) j = ∑ k : Fin K, l (li k) * r (ri k) := by
  rw [Ideal.matmul_constant_zero_apply, ← Equiv.sum_comp (contrEquiv1 d K hr hs).symm]
  exact Finset.sum_congr rfl fun k _ => by rw [hl k, hr' k]

end Cert.LibContract

end
-- ==== Proof.LibKeepdims.lean ====
/-
  The two layout steps of a sum that keeps its axis (`jnp.sum(…, axis=1, keepdims=True)`), read at an index:
  a vector of row statistics `[a]` cast to a column `[a, 1]`, and that column broadcast along the rows to
  `[a, b]`. In row-major order the entry (i, 0) of an `[a, 1]` array is entry i of the `[a]` array, and a
  broadcast reads the operand's unit axis at 0 and its full axis at the result's coordinate. General in the
  extents; they complement the leading-unit-axis casts and the row broadcast `[1, b] → [a, b]` of the library.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.MlpRegion.lean ====
/-
  The second grid, read as one array.  Its 10 points each take a 5000-row tile of the summed messages S (50000 x 128)
  and of the neighbour counts N (50000 x 1), the whole weight matrix W (128 x 128) and the bias row B (1 x 128), and
  write back the tile of

      max( sum_k ( S[n, k] / max(N[n, 0], 1) ) * W[c, k]  +  B[0, c] ,  0 ).

  The row sum is the matrix unit's product of the normalised tile with the transposed weights, accumulated from zero;
  at exact values the two narrowings to 16-bit floats change nothing.  The tiles partition the rows, so after the grid
  the output array is that expression at every index, whatever contents the region was entered with.
-/
import proofs.«168973_j4337916969114_1_alg».proof.Proof.Gen.KernelIdeal.Frame
import proofs.«168973_j4337916969114_1_alg».proof.Proof.LibContract
import proofs.«168973_j4337916969114_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Mlp

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The layer's output for node `p` and output feature `q`. -/
def layerAt (S : S50000x128.Idx → Elt Ideal .f32) (N : S50000x1.Idx → Elt Ideal .f32) (W : S128x128.Idx → Elt Ideal .f32)
    (B : S1x128.Idx → Elt Ideal .f32) (p : Fin 50000) (q : Fin 128) : Elt Ideal .f32 :=
  max ((∑ k : Fin 128, Ideal.div (S (ix2 p k)) (max (N (ix2 p (0 : Fin 1))) (Ideal.ofBits .f32 0x3F800000#32)) * W (ix2 q k))
        + B (ix2 (0 : Fin 1) q)) (Ideal.ofBits .f32 0x00000000#32)

/-- The layer's output as an array. -/
def layer (S : S50000x128.Idx → Elt Ideal .f32) (N : S50000x1.Idx → Elt Ideal .f32) (W : S128x128.Idx → Elt Ideal .f32)
    (B : S1x128.Idx → Elt Ideal .f32) : S50000x128.Idx → Elt Ideal .f32 :=
  fun i => layerAt S N W B (i 0) (i 1)

/-- The same expression over one 5000-row tile. -/
def tileAt (n : Vec Ideal S5000x1 .f32) (s : Vec Ideal S5000x128 .f32) (w : Vec Ideal S128x128 .f32) (b : Vec Ideal S1x128 .f32)
    (r : Fin 5000) (q : Fin 128) : Elt Ideal .f32 :=
  max ((∑ k : Fin 128, Ideal.div (s (ix2 r k)) (max (n (ix2 r (0 : Fin 1))) (Ideal.ofBits .f32 0x3F800000#32)) * w (ix2 q k))
        + b (ix2 (0 : Fin 1) q)) (Ideal.ofBits .f32 0x00000000#32)

theorem origin2 : (![0, 0] : Fin 2 → Nat) = fun _ => 0 := funext fun a => by fin_cases a <;> rfl

/-- In the product of a tile with the transposed weights, the left factor of the `k`-th term of entry (r, q) sits at
    (r, k) … -/
theorem left_position (r : Fin 5000) (q : Fin 128) (k : Fin 128) :
    dot_S5000x128_S128x128_S5000x128_1_0_0_1_n_n.lhsIdx (ix2 r q) ((contrEquiv1 dot_S5000x128_S128x128_S5000x128_1_0_0_1_n_n 128 rfl rfl).symm k) = ix2 r k := by
  have hk := contrEquiv1_symm_val dot_S5000x128_S128x128_S5000x128_1_0_0_1_n_n 128 rfl rfl k
  funext a; apply Fin.ext
  match a with
  | ⟨0, _⟩ =>
    show (dot_S5000x128_S128x128_S5000x128_1_0_0_1_n_n.lhsIdx (ix2 r q) ((contrEquiv1 dot_S5000x128_S128x128_S5000x128_1_0_0_1_n_n 128 rfl rfl).symm k) 0).val = r.val
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  | ⟨1, _⟩ => exact (dot_S5000x128_S128x128_S5000x128_1_0_0_1_n_n.lhsIdx_val_of_single rfl (ix2 r q) _).trans hk

/-- … and the right factor at (k, q). -/
theorem right_position (r : Fin 5000) (q : Fin 128) (k : Fin 128) :
    dot_S5000x128_S128x128_S5000x128_1_0_0_1_n_n.rhsIdx (ix2 r q) ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  funext a; apply Fin.ext
  match a with
  | ⟨0, _⟩ => exact (dot_S5000x128_S128x128_S5000x128_1_0_0_1_n_n.rhsIdx_val_of_single rfl (ix2 r q) _).trans hk
  | ⟨1, _⟩ =>
    show (dot_S5000x128_S128x128_S5000x128_1_0_0_1_n_n.rhsIdx (ix2 r q) ((contrEquiv1 dot_S5000x128_S128x128_S5000x128_1_0_0_1_n_n 128 rfl rfl).symm k) 1).val = q.val
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- What one point stores at position (r, q) of its tile. -/
theorem tile_at (n : Vec Ideal S5000x1 .f32) (s : Vec Ideal S5000x128 .f32) (w : Vec Ideal S128x128 .f32) (b : Vec Ideal S1x128 .f32)
    (r : Fin 5000) (q : Fin 128) : k1_pay1 n s w b (ix2 r q) = tileAt n s w b r q := by
  unfold k1_pay1 tileAt
  dsimp only
  rw [maximumf_apply, addf_apply, broadcast_apply]
  simp only [matmul]
  rw [Cert.LibContract.matmul_zero_entry dot_S5000x128_S128x128_S5000x128_1_0_0_1_n_n none 128 rfl rfl _ _ (ix2 r q) (fun k => ix2 r k) (fun k => ix2 k q)
    (left_position r q) (right_position r q)]
  refine congrArg₂ max (congrArg₂ (· + ·) (Finset.sum_congr rfl fun k _ => congrArg₂ (· * ·) ?_ ?_) ?_) rfl
  · -- the normalised tile at (r, k)
    show Ideal.div (shapeCast S5000x128 s shapeCasts_S5000x128_S5000x128 (ix2 r k))
        (broadcastTo S5000x128 (maximumf (F := Ideal) (shapeCast S5000x1 n shapeCasts_S5000x1_S5000x1)
          (broadcast S5000x1 (FloatOps.ofBits (F := Ideal) .f32 0x3F800000#32))) broadcasts_S5000x1_S5000x128 (ix2 r k)) = _
    rw [shapeCast_self, shapeCast_self, Cert.LibKeepdims.broadcastTo_a1_ab_apply]
    rfl
  · -- the transposed weights at (k, q) are the weights at (q, k)
    exact transpose_apply [1, 0] (truncf (F := Ideal) .bf16 (w : FVec Ideal S128x128 .f32) bitsLt_bf16_f32) transposes_S128x128_p1_0_S128x128 (ix2 k q) (ix2 q k)
      (fun b => match b with
        | ⟨0, _⟩ => rfl
        | ⟨1, _⟩ => rfl)
  · -- the bias row broadcast down the rows
    rw [shapeCast_self]
    exact broadcastTo_apply b broadcasts_S1x128_S5000x128 (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)])

/-- A tile's expression is the array's, when the tile's entries are the array's at the matching positions. -/
theorem tile_is_layer (S : S50000x128.Idx → Elt Ideal .f32) (N : S50000x1.Idx → Elt Ideal .f32) (W : S128x128.Idx → Elt Ideal .f32)
    (B : S1x128.Idx → Elt Ideal .f32) (n : Vec Ideal S5000x1 .f32) (s : Vec Ideal S5000x128 .f32) (w : Vec Ideal S128x128 .f32)
    (b : Vec Ideal S1x128 .f32) (r : Fin 5000) (q : Fin 128) (p : Fin 50000) (q' : Fin 128)
    (hS : ∀ k : Fin 128, s (ix2 r k) = S (ix2 p k)) (hN : n (ix2 r (0 : Fin 1)) = N (ix2 p (0 : Fin 1)))
    (hW : ∀ k : Fin 128, w (ix2 q k) = W (ix2 q' k)) (hB : b (ix2 (0 : Fin 1) q) = B (ix2 (0 : Fin 1) q')) :
    tileAt n s w b r q = layerAt S N W B p q' := by
  unfold tileAt layerAt
  rw [hN, hB]
  refine congrArg₂ max (congrArg₂ (· + ·) (Finset.sum_congr rfl fun k _ => ?_) rfl) rfl
  rw [hS k, hW k]

/-- Reading one array at equal positions. -/
theorem read_eq {S : Shape} (f : S.Idx → Elt Ideal .f32) (a b : S.Idx) (h : a = b) : f a = f b := congrArg f h

/-- The row-tiled windows sit at block row `t`, the whole-array windows at the origin. -/
theorem block_positions : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is tile `t` of the layer's output array. -/
theorem flushed_eq (c : Dev nD) (t : Fin cfg1.N) :
    (dat1 V c).flushed 4 t = ((cfg1.win 4).blk t).view.read (Elt Ideal)
      (layer (V c main_v52) (V c main_v57) (V c main_arg3) (V c main_v58)) := by
  show (cfg1.win 4).cut (grid1.coords t) ((dat1 V c).after 4 t) = _
  rw [after1_4]
  unfold out1_4
  rw [View.canon_unit_zero origin2]
  simp only [View.ld_unit_zero (S := S5000x128) origin2, View.ld_unit_zero (S := S5000x1) origin2,
    View.ld_unit_zero (S := S128x128) origin2, View.ld_unit_zero (S := S1x128) origin2]
  obtain ⟨a0, a1, b0, b1, w0, w1, s0, s1, o0, o1⟩ := block_positions t
  funext j
  obtain ⟨r, q, rfl⟩ : ∃ (r : Fin 5000) (q : Fin 128), j = ix2 r q := ⟨j 0, j 1, eq_ix2 j⟩
  refine (tile_at (iblk1 V c 1 t) (iblk1 V c 0 t) (iblk1 V c 2 t) (iblk1 V c 3 t) r q).trans ?_
  refine tile_is_layer (V c main_v52) (V c main_v57) (V c main_arg3) (V c main_v58)
    (iblk1 V c 1 t) (iblk1 V c 0 t) (iblk1 V c 2 t) (iblk1 V c 3 t) r q
    ((((cfg1.win 4).blk t).view.emb (ix2 r q)) 0) ((((cfg1.win 4).blk t).view.emb (ix2 r q)) 1) ?_ ?_ ?_ ?_
  · intro k
    refine read_eq (V c main_v52) (((cfg1.win 0).blk t).view.emb (ix2 r k)) _ ?_
    funext a; apply Fin.ext
    match a with
    | ⟨0, _⟩ => show win1_0.index t (0 : Fin 2) * 5000 + 1 * r.val = win1_4.index t (0 : Fin 2) * 5000 + 1 * r.val; omega
    | ⟨1, _⟩ => show win1_0.index t (1 : Fin 2) * 128 + 1 * k.val = k.val; omega
  · refine read_eq (V c main_v57) (((cfg1.win 1).blk t).view.emb (ix2 r (0 : Fin 1))) _ ?_
    funext a; apply Fin.ext
    match a with
    | ⟨0, _⟩ => show win1_1.index t (0 : Fin 2) * 5000 + 1 * r.val = win1_4.index t (0 : Fin 2) * 5000 + 1 * r.val; omega
    | ⟨1, _⟩ => show win1_1.index t (1 : Fin 2) * 1 + 1 * 0 = 0; omega
  · intro k
    refine read_eq (V c main_arg3) (((cfg1.win 2).blk t).view.emb (ix2 q k)) _ ?_
    funext a; apply Fin.ext
    match a with
    | ⟨0, _⟩ => show win1_2.index t (0 : Fin 2) * 128 + 1 * q.val = win1_4.index t (1 : Fin 2) * 128 + 1 * q.val; omega
    | ⟨1, _⟩ => show win1_2.index t (1 : Fin 2) * 128 + 1 * k.val = k.val; omega
  · refine read_eq (V c main_v58) (((cfg1.win 3).blk t).view.emb (ix2 (0 : Fin 1) q)) _ ?_
    funext a; apply Fin.ext
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega

/-- An index is in point `t`'s output tile iff each coordinate is in the tile's range on its axis. -/
theorem mem_tile (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v59).slice (win1_4.rect t)).set ↔ _
  rw [View.set_slice_whole, Rect.mem_set_unit]
  exact Iff.rfl

/-- Every index lies in a tile: row `n` in tile `n / 5000`. -/
theorem tiles_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨a0, a1, b0, b1, w0, w1, s0, s1, o0, o1⟩ := block_positions t
  have o0' : win1_4.index t (0 : Fin 2) = (i 0).val / 5000 := o0
  refine ⟨t, flush1_4 t, ?_⟩
  rw [mem_tile]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the grid the output array is the layer's output. -/
theorem final (c : Dev nD) : (dat1 V c).arrAt 4 cfg1.N = layer (V c main_v52) (V c main_v57) (V c main_arg3) (V c main_v58) :=
  (dat1 V c).arrAt_eq_of_cover 4 (layer (V c main_v52) (V c main_v57) (V c main_arg3) (V c main_v58))
    (fun t _ => flushed_eq V c t) tiles_cover

end Cert.KernelIdeal.Mlp

end
-- ==== Proof.HostValues.lean ====
/-
  The host side of the program, read back.  Before the first grid the host gathers the rows H = h[edge_src] and
  computes the per-edge coefficient C = alpha[idx] * edge_weight, reshaped to a column; these are, operation for
  operation, the reference's own gathered rows and coefficient.  Between the grids it scatter-adds the scaled rows
  and a vector of ones by destination node and reshapes the counts to a column and the bias to a row.  Read through
  the two grids' closed forms, the result array is the layer's output of

      the reference's summed messages, its neighbour counts (as a column), the weights, and the bias (as a row).
-/
import proofs.«168973_j4337916969114_1_alg».proof.Proof.Gen.KernelIdeal.Frame
import proofs.«168973_j4337916969114_1_alg».proof.Proof.Gen.ReferenceIdeal.Read
import proofs.«168973_j4337916969114_1_alg».proof.Proof.ScaleRegion
import proofs.«168973_j4337916969114_1_alg».proof.Proof.MlpRegion
import proofs.«168973_j4337916969114_1_alg».proof.Proof.LibKeepdims

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## What the first grid is entered with -/

set_option maxHeartbeats 4000000 in
/-- The gathered rows are the reference's. -/
theorem gathered_rows (c : Dev nD) :
    (V7 m ρ c main_v47 : S1000000x128.Idx → Elt Ideal .f32)
      = Cert.ReferenceIdeal.Read.val_main_v47 (F := Ideal) (m ((c.tc : Thread nD τ).loc main_arg0)) (m ((c.tc : Thread nD τ).loc main_arg6)) := by
  dsimp only [V7, W7, W6, W5, W4, W3, W2, W1, W0, hostOps0, hostOps0_1, hostOps0_2, hostOps0_3, hostOps0_4, hostOps0_5, hostOps0_6]
  after_results_simp
  rfl

set_option maxHeartbeats 4000000 in
/-- The coefficient column is the reference's per-edge coefficient, reshaped. -/
theorem coeff_column (c : Dev nD) :
    (V7 m ρ c main_v48 : S1000000x1.Idx → Elt Ideal .f32)
      = shapeCast S1000000x1 (Cert.ReferenceIdeal.Read.val_main_v40 (F := Ideal) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7))) shapeCasts_S1000000_S1000000x1 := by
  dsimp only [V7, W7, W6, W5, W4, W3, W2, W1, W0, hostOps0, hostOps0_1, hostOps0_2, hostOps0_3, hostOps0_4, hostOps0_5, hostOps0_6]
  after_results_simp
  rfl

set_option maxHeartbeats 4000000 in
/-- No host operation before the first grid writes an argument: the destination indices are as launched … -/
theorem dst_at_entry (c : Dev nD) : W7 m ρ c (Proc.devRef .tc main_arg7) = m ((c.tc : Thread nD τ).loc main_arg7) := by
  dsimp only [V7, W7, W6, W5, W4, W3, W2, W1, W0, hostOps0, hostOps0_1, hostOps0_2, hostOps0_3, hostOps0_4, hostOps0_5, hostOps0_6]
  after_results_simp <;> rfl

set_option maxHeartbeats 4000000 in
/-- … and so are the weights … -/
theorem weights_at_entry (c : Dev nD) : W7 m ρ c (Proc.devRef .tc main_arg3) = m ((c.tc : Thread nD τ).loc main_arg3) := by
  dsimp only [V7, W7, W6, W5, W4, W3, W2, W1, W0, hostOps0, hostOps0_1, hostOps0_2, hostOps0_3, hostOps0_4, hostOps0_5, hostOps0_6]
  after_results_simp <;> rfl

set_option maxHeartbeats 4000000 in
/-- … and the bias. -/
theorem bias_at_entry (c : Dev nD) : W7 m ρ c (Proc.devRef .tc main_arg4) = m ((c.tc : Thread nD τ).loc main_arg4) := by
  dsimp only [V7, W7, W6, W5, W4, W3, W2, W1, W0, hostOps0, hostOps0_1, hostOps0_2, hostOps0_3, hostOps0_4, hostOps0_5, hostOps0_6]
  after_results_simp <;> rfl

/-! ## What the first grid leaves -/

/-- The first grid's output array is the reference's message array: each gathered row times its coefficient. -/
theorem messages (c : Dev nD) :
    W8 m ρ c (Proc.devRef .tc main_v49)
      = Cert.ReferenceIdeal.Read.val_main_v50 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) := by
  refine (W8_arr m ρ c 2).trans ((Scale.final (V7 m ρ) c).trans ?_)
  rw [gathered_rows, coeff_column]
  funext i
  rw [Cert.ReferenceIdeal.Read.val_main_v50_apply, Cert.ReferenceIdeal.Read.val_main_v49_apply, Cert.ReferenceIdeal.Read.val_main_v48_apply]
  unfold Scale.scaled
  have e1 : Scale.rowOf i = ix2 (⟨(i 0).val, (i 0).isLt⟩ : Fin 1000000) (0 : Fin 1) := by
    funext a; match a with | ⟨0, _⟩ => rfl | ⟨1, _⟩ => rfl
  have e2 : Cert.ReferenceIdeal.Read.idx_main_v48 (Cert.ReferenceIdeal.Read.idx_main_v49 i) = ix1 (⟨(i 0).val, (i 0).isLt⟩ : Fin 1000000) := by
    funext a; match a with | ⟨0, _⟩ => rfl
  rw [e1, e2, Cert.LibKeepdims.shapeCast_a_a1_apply]
  rfl

/-- The first grid writes only its output array: the arguments it does not touch are as at its entry. -/
theorem dst_after_scale (c : Dev nD) : W8 m ρ c (Proc.devRef .tc main_arg7) = m ((c.tc : Thread nD τ).loc main_arg7) :=
  (W8_of_ne m ρ c main_arg7 (by decide)).trans (dst_at_entry m ρ c)
theorem weights_after_scale (c : Dev nD) : W8 m ρ c (Proc.devRef .tc main_arg3) = m ((c.tc : Thread nD τ).loc main_arg3) :=
  (W8_of_ne m ρ c main_arg3 (by decide)).trans (weights_at_entry m ρ c)
theorem bias_after_scale (c : Dev nD) : W8 m ρ c (Proc.devRef .tc main_arg4) = m ((c.tc : Thread nD τ).loc main_arg4) :=
  (W8_of_ne m ρ c main_arg4 (by decide)).trans (bias_at_entry m ρ c)

/-! ## What the second grid is entered with -/

/-- The summed messages are the reference's scatter-add of its message array. -/
theorem sums (c : Dev nD) :
    (V9 m ρ c main_v52 : S50000x128.Idx → Elt Ideal .f32)
      = Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) := by
  dsimp only [V9, W9, hostOps1]
  after_results_simp
  rw [messages, dst_after_scale]
  rfl

/-- The neighbour counts are the reference's scatter-add of ones, reshaped to a column. -/
theorem counts (c : Dev nD) :
    (V9 m ρ c main_v57 : S50000x1.Idx → Elt Ideal .f32)
      = shapeCast S50000x1 (Cert.ReferenceIdeal.Read.val_main_v57 (F := Ideal) (m ((c.tc : Thread nD τ).loc main_arg7))) shapeCasts_S50000_S50000x1 := by
  dsimp only [V9, W9, hostOps1]
  after_results_simp
  rw [dst_after_scale]
  rfl

/-- The weights reach the second grid as launched. -/
theorem weights (c : Dev nD) : (V9 m ρ c main_arg3 : S128x128.Idx → Elt Ideal .f32) = m ((c.tc : Thread nD τ).loc main_arg3) := by
  dsimp only [V9, W9, hostOps1]
  after_results_simp
  exact weights_after_scale m ρ c

/-- The bias reaches it reshaped to a row. -/
theorem bias_row (c : Dev nD) :
    (V9 m ρ c main_v58 : S1x128.Idx → Elt Ideal .f32) = shapeCast S1x128 (m ((c.tc : Thread nD τ).loc main_arg4)) shapeCasts_S128_S1x128 := by
  dsimp only [V9, W9, hostOps1]
  after_results_simp
  rw [bias_after_scale]
  rfl

/-! ## The result -/

/-- The result array, as one function of the launch arguments. -/
def result (c : Dev nD) : S50000x128.Idx → Elt Ideal .f32 :=
  Mlp.layer (Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)))
    (shapeCast S50000x1 (Cert.ReferenceIdeal.Read.val_main_v57 (F := Ideal) (m ((c.tc : Thread nD τ).loc main_arg7))) shapeCasts_S50000_S50000x1)
    (m ((c.tc : Thread nD τ).loc main_arg3)) (shapeCast S1x128 (m ((c.tc : Thread nD τ).loc main_arg4)) shapeCasts_S128_S1x128)

/-- What the second grid leaves is that function. -/
theorem result_eq (c : Dev nD) : (dat1 (V9 m ρ) c).arrAt 4 cfg1.N = result m c := by
  refine (Mlp.final (V9 m ρ) c).trans ?_
  rw [sums, counts, weights, bias_row]
  rfl

end Cert.KernelIdeal.HostSide

end
-- ==== Proof.Bridge.lean ====
/-
  The reference is the same layer.  Its last stage, read at node `p` and feature `q`, is

      max( sum_k ( S[p, k] / max(N[p], 1) ) * W[q, k]  +  b[q] ,  0 )

  with S its summed messages and N its neighbour counts: the division is broadcast along the features, the product
  with the transposed weights is a sum over the 128 input features, the bias is broadcast down the rows, and the
  final maximum is against a zero splat.  The idealized kernel reads N through a one-column array and b through a
  one-row array; in row-major order those reshapes move nothing.
-/
import proofs.«168973_j4337916969114_1_alg».proof.Proof.Gen.ReferenceIdeal.Read
import proofs.«168973_j4337916969114_1_alg».proof.Proof.MlpRegion
import proofs.«168973_j4337916969114_1_alg».proof.Proof.LibKeepdims

set_option maxRecDepth 16384

noncomputable section

namespace Cert.Bridge

open Cert.KernelIdeal Idealize.ShloMosaic Idealize.ShloMosaic.TcCoe Idealize.ShloMosaic.ValueIdx
open Cert.ReferenceIdeal.Read

/-- A `[128]` array cast to the row `[1, 128]` reads, at `(0, q)`, the operand at `q`. -/
theorem row_cast {α : Type} (x : (⟨1, ![128]⟩ : Shape).Idx → α) (h : (⟨1, ![128]⟩ : Shape).ShapeCasts ⟨2, ![1, 128]⟩) (q : Fin 128) :
    shapeCast ⟨2, ![1, 128]⟩ x h (ix2 (0 : Fin 1) q) = x (ix1 q) :=
  shapeCast_apply x h _ _ (by
    rw [Shape.rowMajor_val_two, Shape.rowMajor_val_one]
    show q.val = (0 : Fin 1).val * 128 + q.val
    simp)

/-- The reference's result stage is the layer's output of its own summed messages, its counts as a column, the
    weights, and the bias as a row. -/
theorem reference_is_layer
    (x0 : (⟨S50000x128, .f32⟩ : BufTy).Contents (Elt Ideal)) (x1 : (⟨S3002, .f32⟩ : BufTy).Contents (Elt Ideal))
    (x2 : (⟨S1000000, .f32⟩ : BufTy).Contents (Elt Ideal)) (x3 : (⟨S128x128, .f32⟩ : BufTy).Contents (Elt Ideal))
    (x4 : (⟨S128, .f32⟩ : BufTy).Contents (Elt Ideal)) (x5 : (⟨S50000, .i32⟩ : BufTy).Contents (Elt Ideal))
    (x6 x7 : (⟨S1000000, .i32⟩ : BufTy).Contents (Elt Ideal))
    (hN : S50000.ShapeCasts S50000x1) (hB : S128.ShapeCasts S1x128) :
    val_main_v68 (F := Ideal) x0 x1 x2 x3 x4 x5 x6 x7
      = Mlp.layer (val_main_v53 (F := Ideal) x0 x1 x2 x5 x6 x7) (shapeCast S50000x1 (val_main_v57 (F := Ideal) x7) hN)
          x3 (shapeCast S1x128 x4 hB) := by
  funext i
  obtain ⟨p, q, rfl⟩ : ∃ (p : Fin 50000) (q : Fin 128), i = ix2 p q := ⟨i 0, i 1, eq_ix2 i⟩
  rw [val_main_v68_apply, val_main_v67_apply, val_main_v64_apply, val_main_v66_apply, val_main_v65_apply,
    val_main_call3_v0_apply, val_main_call3_cst_apply]
  change _ = Mlp.layerAt _ _ _ _ p q
  unfold Mlp.layerAt
  simp only [Ideal.maximumf_def, Ideal.addf_def, Ideal.ofBits_def]
  refine congrArg₂ max (congrArg₂ (· + ·) (Finset.sum_congr rfl fun k _ => congrArg₂ (· * ·) ?_ ?_) ?_) rfl
  · -- the summed messages of node p, feature k, over the node's count
    have e1 : lidx_main_v64 (ix2 p q) k = ix2 p k := funext fun a => match a with
      | ⟨0, _⟩ => rfl
      | ⟨1, _⟩ => rfl
    have e2 : idx_main_v60 (idx_main_v61 (ix2 p k)) = ix1 p := funext fun a => match a with
      | ⟨0, _⟩ => rfl
    rw [val_main_v62_apply, val_main_v61_apply, val_main_v60_apply, val_main_v59_apply, val_main_v58_apply,
      val_main_cst_17_apply, Cert.LibKeepdims.shapeCast_a_a1_apply, e1, e2]
    rfl
  · -- the transposed weights at (k, q) are the weights at (q, k)
    rw [val_main_v63_apply]
    exact congrArg x3 (funext fun a => match a with
      | ⟨0, _⟩ => rfl
      | ⟨1, _⟩ => rfl)
  · -- the bias of feature q
    rw [row_cast]
    exact congrArg x4 (funext fun a => match a with
      | ⟨0, _⟩ => rfl)

end Cert.Bridge

end
-- ==== Proof.lean ====
/-
  The certificate of a graph layer on a TPU against its array-language reference.

  Both programs compute, for every node n and output feature c,

      out[n, c] = max( sum_k ( S[n, k] / max(N[n], 1) ) * W[c, k] + b[c] , 0 ),

  where, with one message per edge e,  msg[e, :] = h[src e, :] * (alpha[idx e] * edge_weight[e]),
  S[n, :] is the sum of msg[e, :] over the edges with destination n, and N[n] the number of such edges.
  The index arithmetic, the gathers and the two scatter-adds are the same host operations in both programs.  The
  kernel differs only in computing msg tile by tile (125 tiles of 8000 edges) and the layer tile by tile (10 tiles of
  5000 nodes), with the row sum done by the matrix unit from a zero accumulator.  Over the extended reals a tiling
  changes nothing and the matrix unit's product is the same finite sum, so the results agree index by index; no law
  used needs the inputs finite.

  The three frame claims: the two kernel programs' are the generated frame certificates; the reference has no kernel,
  and its frame is its generated run with the result dropped.  The idealization rewrote nothing, so `preserves` is
  trivial.  For `algebraic`, the kernel program's run names its result as what the second grid leaves
  (KernelRun), the two grids are read as whole arrays (ScaleRegion, MlpRegion), the host operations around them are
  read back as the reference's own stages of the launch arguments (HostValues), and the reference's last stage is
  the same function of those (Bridge).
-/
import proofs.«168973_j4337916969114_1_alg».proof.Defs
import proofs.«168973_j4337916969114_1_alg».proof.Proof.Gen.Kernel
import proofs.«168973_j4337916969114_1_alg».proof.Proof.Gen.Kernel.Skeleton
import proofs.«168973_j4337916969114_1_alg».proof.Proof.Gen.Kernel.Launch
import proofs.«168973_j4337916969114_1_alg».proof.Proof.Gen.Kernel.Points
import proofs.«168973_j4337916969114_1_alg».proof.Proof.Gen.Kernel.Frame
import proofs.«168973_j4337916969114_1_alg».proof.Proof.Gen.KernelIdeal
import proofs.«168973_j4337916969114_1_alg».proof.Proof.Gen.KernelIdeal.Skeleton
import proofs.«168973_j4337916969114_1_alg».proof.Proof.Gen.KernelIdeal.Launch
import proofs.«168973_j4337916969114_1_alg».proof.Proof.Gen.KernelIdeal.Points
import proofs.«168973_j4337916969114_1_alg».proof.Proof.Gen.KernelIdeal.Frame
import proofs.«168973_j4337916969114_1_alg».proof.Proof.Gen.ReferenceIdeal
import proofs.«168973_j4337916969114_1_alg».proof.Proof.Gen.ReferenceIdeal.Run
import proofs.«168973_j4337916969114_1_alg».proof.Proof.Gen.ReferenceIdeal.Read
import proofs.«168973_j4337916969114_1_alg».proof.Proof.Gen.Pre_finite_inputs
import proofs.«168973_j4337916969114_1_alg».proof.Proof.KernelRun
import proofs.«168973_j4337916969114_1_alg».proof.Proof.HostValues
import proofs.«168973_j4337916969114_1_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer's output of the same summed
    messages, counts, weights and bias. -/
theorem algebraic : Cert.algebraic_KernelIdeal_ReferenceIdeal := by
  intro m ρ m' ρ' _ hagree
  refine ⟨fun c => Cert.KernelIdeal.HostSide.result m c, ?_, ?_⟩
  · exact (θ_run Cert.KernelIdeal.defs _ _).mono
      (fun r h c => ⟨(h c).1.trans (Cert.KernelIdeal.HostSide.result_eq m ρ c), (h c).2⟩)
      (Cert.KernelIdeal.Whole.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v68_eq, h0, h1, h2, h3, h4, h5, h6, h7]
    exact Cert.Bridge.reference_is_layer _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
